-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S3x128x64 : Shape := ⟨3, ![3, 128, 64]⟩
abbrev S64 : Shape := ⟨1, ![64]⟩
abbrev S3x64x40 : Shape := ⟨3, ![3, 64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_
  bcast_S_S3x64x40 : S_.BroadcastsInDim S3x64x40 (![] : Fin 0 → Fin S3x64x40.rank)
  reducesTo_S3x64x40_S_d0_1_2 : S3x64x40.ReducesTo [0, 1, 2] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S3x64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x40 .f32 := Host.absf main_arg5
  let main_cst_6 : FVec F S_ .f32 := constant S_ .f32 0x7F800000#32
  let main_v20 : FVec F S3x64x40 .f32 := broadcastInDim S3x64x40 ![] bcast_S_S3x64x40 main_cst_6
  let main_v21 : IVec S3x64x40 1 := cmpf .olt main_v19 main_v20
  let main_c_7 : IVec S_ 1 := constantI S_ 1 1#1
  let main_v22 : IVec S_ 1 := (fun x v => Host.reduce IntOp.andi x v reducesTo_S3x64x40_S_d0_1_2 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S3x128x64 .f32) (main_arg4 : FVec F S64 .f32) (main_arg5 : FVec F S3x64x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x64 .f32 := Host.absf main_arg3
  let main_cst_2 : FVec F S_ .f32 := constant S_ .f32 0x7F800000#32
  let main_v10 : FVec F S3x128x64 .f32 := broadcastInDim S3x128x64 ![] bcast_S_S3x128x64 main_cst_2
  let main_v11 : IVec S3x128x64 1 := cmpf .olt main_v9 main_v10
  let main_c_3 : IVec S_ 1 := constantI S_ 1 1#1
  let main_v12 : IVec S_ 1 := (fun x v => Host.reduce IntOp.andi x v reducesTo_S3x128x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S3x128x64 : Shape := ⟨3, ![3, 128, 64]⟩
abbrev S64 : Shape := ⟨1, ![64]⟩
abbrev S3x64x40 : Shape := ⟨3, ![3, 64, 40]⟩
abbrev S40 : Shape := ⟨1, ![40]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1x128x64 : Shape := ⟨3, ![1, 128, 64]⟩
abbrev S128x64 : Shape := ⟨2, ![128, 64]⟩
abbrev S1600000x64 : Shape := ⟨2, ![1600000, 64]⟩
abbrev S1x40 : Shape := ⟨2, ![1, 40]⟩
abbrev S100000x40 : Shape := ⟨2, ![100000, 40]⟩
abbrev S5000x40 : Shape := ⟨2, ![5000, 40]⟩
abbrev S1x64x40 : Shape := ⟨3, ![1, 64, 40]⟩
abbrev S64x40 : Shape := ⟨2, ![64, 40]⟩

abbrev nBuf : Space → Nat
  | .hbm => 127
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S3x128x64, .f32⟩
  | .hbm, ⟨4, _⟩ => ⟨S64, .f32⟩
  | .hbm, ⟨5, _⟩ => ⟨S3x64x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S1600000, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1600000x1, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S1x64, .f32⟩
  | .hbm, ⟨88, _⟩ => ⟨S100000x64, .f32⟩
  | .hbm, ⟨89, _⟩ => ⟨S1600000x1, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x64, .f32⟩
  | .hbm, ⟨99, _⟩ => ⟨S1600000x64, .f32⟩
  | .hbm, ⟨100, _⟩ => ⟨S1600000x64, .f32⟩
  | .hbm, ⟨101, _⟩ => ⟨S_, .f32⟩
  | .hbm, ⟨102, _⟩ => ⟨S100000x64, .f32⟩
  | .hbm, ⟨103, _⟩ => ⟨S1600000x1, .i32⟩
  | .hbm, ⟨104, _⟩ => ⟨S100000x64, .f32⟩
  | .hbm, ⟨105, _⟩ => ⟨S1600000x1, .f32⟩
  | .hbm, ⟨106, _⟩ => ⟨S_, .i32⟩
  | .hbm, ⟨107, _⟩ => ⟨S1600000, .i32⟩
  | .hbm, ⟨108, _⟩ => ⟨S1600000, .i1⟩
  | .hbm, ⟨109, _⟩ => ⟨S_, .i32⟩
  | .hbm, ⟨110, _⟩ => ⟨S1600000, .i32⟩
  | .hbm, ⟨111, _⟩ => ⟨S1600000, .i32⟩
  | .hbm, ⟨112, _⟩ => ⟨S1600000, .i32⟩
  | .hbm, ⟨113, _⟩ => ⟨S1600000x1, .i32⟩
  | .hbm, ⟨114, _⟩ => ⟨S1600000x64, .f32⟩
  | .hbm, ⟨115, _⟩ => ⟨S1600000x64, .f32⟩
  | .hbm, ⟨116, _⟩ => ⟨S1600000x64, .f32⟩
  | .hbm, ⟨117, _⟩ => ⟨S_, .f32⟩
  | .hbm, ⟨118, _⟩ => ⟨S100000x64, .f32⟩
  | .hbm, ⟨119, _⟩ => ⟨S1600000x1, .i32⟩
  | .hbm, ⟨120, _⟩ => ⟨S100000x64, .f32⟩
  | .hbm, ⟨121, _⟩ => ⟨S_, .f32⟩
  | .hbm, ⟨122, _⟩ => ⟨S100000x64, .f32⟩
  | .hbm, ⟨123, _⟩ => ⟨S100000x64, .f32⟩
  | .hbm, ⟨124, _⟩ => ⟨S100000x64, .f32⟩
  | .hbm, ⟨125, _⟩ => ⟨S1x40, .f32⟩
  | .hbm, ⟨126, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S3x128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S3x64x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_c_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_v79 : Ref sig .tc := ⟨.hbm, 107, rfl⟩
abbrev main_v80 : Ref sig .tc := ⟨.hbm, 108, rfl⟩
abbrev main_c_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  inb_S3x128x64_S1x128x64_1_0_0 : ∀ a, (![1, 0, 0] : Fin 3 → Nat) a + S1x128x64.size a ≤ S3x128x64.size a
  inb_S3x128x64_S1x128x64_2_0_0 : ∀ a, (![2, 0, 0] : Fin 3 → Nat) a + S1x128x64.size a ≤ S3x128x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S40_S1x40 : S40.ShapeCasts S1x40
  shapeCasts_S5000x64_S5000x64 : S5000x64.ShapeCasts S5000x64
  inb_S3x64x40_S1x64x40_0_0_0 : ∀ a, (![0, 0, 0] : Fin 3 → Nat) a + S1x64x40.size a ≤ S3x64x40.size a
  h_S1x64x40 : 0 < S1x64x40.numel
  shapeCasts_S1x64x40_S64x40 : S1x64x40.ShapeCasts S64x40
  inb_S3x64x40_S1x64x40_1_0_0 : ∀ a, (![1, 0, 0] : Fin 3 → Nat) a + S1x64x40.size a ≤ S3x64x40.size a
  inb_S3x64x40_S1x64x40_2_0_0 : ∀ a, (![2, 0, 0] : Fin 3 → Nat) a + S1x64x40.size a ≤ S3x64x40.size a
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x64.size a ≤ S3x128x64.size a
  hwx0_3 : ∀ i : grid0.Coords, EltTy.bits .f32 = 32 ∨ (Rect.block (s := S3x128x64) S3x128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x40.size a ≤ S3x64x40.size a
  hwx1_3 : ∀ i : grid1.Coords, EltTy.bits .f32 = 32 ∨ (Rect.block (s := S3x64x40) S3x64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v63) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v64) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v93) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v94) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S3x128x64 : Shape := ⟨3, ![3, 128, 64]⟩
abbrev S64 : Shape := ⟨1, ![64]⟩
abbrev S3x64x40 : Shape := ⟨3, ![3, 64, 40]⟩
abbrev S40 : Shape := ⟨1, ![40]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x128x64 : Shape := ⟨3, ![1, 128, 64]⟩
abbrev S128x64 : Shape := ⟨2, ![128, 64]⟩
abbrev S100000x64 : Shape := ⟨2, ![100000, 64]⟩
abbrev S1600000x128 : Shape := ⟨2, ![1600000, 128]⟩
abbrev S1x64 : Shape := ⟨2, ![1, 64]⟩
abbrev S1x64x40 : Shape := ⟨3, ![1, 64, 40]⟩
abbrev S64x40 : Shape := ⟨2, ![64, 40]⟩
abbrev S100000x40 : Shape := ⟨2, ![100000, 40]⟩
abbrev S1600000x64 : Shape := ⟨2, ![1600000, 64]⟩
abbrev S1x40 : Shape := ⟨2, ![1, 40]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S3x128x64, .f32⟩
  | 4 => ⟨S64, .f32⟩
  | 5 => ⟨S3x64x40, .f32⟩
  | 6 => ⟨S40, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .i1⟩
  | 18 => ⟨S_, .f32⟩
  | 19 => ⟨S100000, .f32⟩
  | 20 => ⟨S100000, .f32⟩
  | 21 => ⟨S100000, .f32⟩
  | 22 => ⟨S_, .f32⟩
  | 23 => ⟨S_, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1x1600000, .i32⟩
  | 48 => ⟨S1600000, .i32⟩
  | 49 => ⟨S1x1600000, .i32⟩
  | 50 => ⟨S1600000, .i32⟩
  | 51 => ⟨S1x128x64, .f32⟩
  | 52 => ⟨S128x64, .f32⟩
  | 53 => ⟨S100000x64, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x128, .f32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S1x128x64, .f32⟩
  | 71 => ⟨S128x64, .f32⟩
  | 72 => ⟨S100000x64, .f32⟩
  | 73 => ⟨S100000x64, .f32⟩
  | 74 => ⟨S1600000x1, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S1600000x128, .f32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S1x128x64, .f32⟩
  | 95 => ⟨S128x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S1x1600000, .i32⟩
  | 105 => ⟨S1600000, .i32⟩
  | 106 => ⟨S1x1600000, .i32⟩
  | 107 => ⟨S1600000, .i32⟩
  | 108 => ⟨S1x64x40, .f32⟩
  | 109 => ⟨S64x40, .f32⟩
  | 110 => ⟨S100000x40, .f32⟩
  | 111 => ⟨S1600000x1, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .f32⟩
  | 121 => ⟨S1600000x64, .f32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S1x64x40, .f32⟩
  | _ => ⟨S100000x128, .f32⟩

abbrev hbmTy0_1 (i : Nat) : BufTy := match i % 128 with
  | 0 => ⟨S64x40, .f32⟩
  | 1 => ⟨S100000x40, .f32⟩
  | 2 => ⟨S100000x40, .f32⟩
  | 3 => ⟨S1600000x1, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x64, .f32⟩
  | 13 => ⟨S1600000x64, .f32⟩
  | 14 => ⟨S1600000x64, .f32⟩
  | 15 => ⟨S_, .f32⟩
  | 16 => ⟨S100000x64, .f32⟩
  | 17 => ⟨S1600000x1, .i32⟩
  | 18 => ⟨S100000x64, .f32⟩
  | 19 => ⟨S_, .f32⟩
  | 20 => ⟨S100000x64, .f32⟩
  | 21 => ⟨S100000x64, .f32⟩
  | 22 => ⟨S100000x64, .f32⟩
  | 23 => ⟨S1x64x40, .f32⟩
  | 24 => ⟨S64x40, .f32⟩
  | 25 => ⟨S100000x40, .f32⟩
  | 26 => ⟨S100000x40, .f32⟩
  | 27 => ⟨S1x40, .f32⟩
  | 28 => ⟨S100000x40, .f32⟩
  | 29 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_9 : Ref sig .tc := ⟨.hbm, 75, rfl⟩
abbrev main_v55 : Ref sig .tc := ⟨.hbm, 76, rfl⟩
abbrev main_v56 : Ref sig .tc := ⟨.hbm, 77, rfl⟩
abbrev main_c_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call1_cst : Ref sig .tc := ⟨.hbm, 101, rfl⟩
abbrev main_call1_v0 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_13 : Ref sig .tc := ⟨.hbm, 112, rfl⟩
abbrev main_v86 : Ref sig .tc := ⟨.hbm, 113, rfl⟩
abbrev main_v87 : Ref sig .tc := ⟨.hbm, 114, rfl⟩
abbrev main_c_14 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_15 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_c_16 : Ref sig .tc := ⟨.hbm, 132, rfl⟩
abbrev main_v103 : Ref sig .tc := ⟨.hbm, 133, rfl⟩
abbrev main_v104 : Ref sig .tc := ⟨.hbm, 134, rfl⟩
abbrev main_c_17 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_18 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_19 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x128x64_S1x128x64_0_0_0 : S3x128x64.Slices ![0, 0, 0] S1x128x64
  shapeCasts_S1x128x64_S128x64 : S1x128x64.ShapeCasts S128x64
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x64x40_S1x64x40_0_0_0 : S3x64x40.Slices ![0, 0, 0] S1x64x40
  shapeCasts_S1x64x40_S64x40 : S1x64x40.ShapeCasts S64x40
  bcast_S1600000x1_S1600000x64_0_1 : S1600000x1.BroadcastsInDim S1600000x64 (![0, 1] : Fin 2 → Fin S1600000x64.rank)
  slices_S3x64x40_S1x64x40_1_0_0 : S3x64x40.Slices ![1, 0, 0] S1x64x40
  slices_S3x64x40_S1x64x40_2_0_0 : S3x64x40.Slices ![2, 0, 0] S1x64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x64_S64x40_S100000x40_1_0_0_1_n_n_wf : DotDims.WF S100000x64 S64x40 S100000x40 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KerRun.lean ====
/-
  The idealized kernel's run with its result named. The program is a chain of six segments: three stretches of host
  operations, the first combine step, one more stretch of host operations, the second combine step. Every weakly fair
  execution runs them in order and terminates without a fault; the buffer contents at each boundary are a fold from the
  launch memory, and the state at the end holds every unscoped buffer at the last boundary's contents. So the result
  array ends at the last boundary's contents of its buffer, and each argument array as launched.
-/
import proofs.«168913_j40604620816841_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents of
    its buffer after the last segment and the argument arrays as launched. -/
theorem run_value : θ_run defs (onTc (τ := τ) (main (F := F))) ⟨m, fun _ => 0, ρ⟩ (fun r => ∀ c : Dev nD,
      r.2.mem ((c.tc : Thread nD τ).loc main_v95) = W6 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v95 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Run

end
-- ==== Proof.HostA.lean ====
/-
  The idealized kernel's host operations up to its first combine step, against the reference's stages. Both programs
  derive the same quantities from the edge list and the edge weights by the same operations: the source and target
  node of each edge (two rows of the index array), the weighted degree of each node (a scatter-add of the weights by
  source node), its inverse square root where the degree is positive and zero elsewhere, the normalised edge weight
  (minus the product of the two end nodes' factors and the weight), and then the propagated features: gather the rows
  of a feature array by source node, scale each by its edge's normalised weight, scatter-add by target node. Written as
  terms of the launch arrays the kernel's buffers ARE the reference's stages; no property of any operation is used.
-/
import proofs.«168913_j40604620816841_1_alg».proof.Proof.Gen.KernelIdeal.Frame
import proofs.«168913_j40604620816841_1_alg».proof.Proof.Gen.ReferenceIdeal.Read
import Idealize.ShloMosaic.Lib.StableHlo.Run
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg)

/-! ## After the first two stretches: the edges' end nodes, the degree test and the inverse square root -/

theorem src_norm (c : Dev nD) : W2 m ρ c (Proc.devRef .tc main_v5) = val_main_v1 (F := Ideal) (m ((c : Thread nD τ).loc main_arg1)) := by
  show StableHlo.after hostOps0_1 (StableHlo.after hostOps0 (W0 m ρ c)) (Proc.devRef .tc main_v5) = _
  after_results_simp <;> rfl

theorem dst_norm (c : Dev nD) : W2 m ρ c (Proc.devRef .tc main_v7) = val_main_v3 (F := Ideal) (m ((c : Thread nD τ).loc main_arg1)) := by
  show StableHlo.after hostOps0_1 (StableHlo.after hostOps0 (W0 m ρ c)) (Proc.devRef .tc main_v7) = _
  after_results_simp <;> rfl

theorem src_prop (c : Dev nD) : W2 m ρ c (Proc.devRef .tc main_v1) = val_main_v31 (F := Ideal) (m ((c : Thread nD τ).loc main_arg1)) := by
  show StableHlo.after hostOps0_1 (StableHlo.after hostOps0 (W0 m ρ c)) (Proc.devRef .tc main_v1) = _
  after_results_simp <;> rfl

theorem dst_prop (c : Dev nD) : W2 m ρ c (Proc.devRef .tc main_v3) = val_main_v33 (F := Ideal) (m ((c : Thread nD τ).loc main_arg1)) := by
  show StableHlo.after hostOps0_1 (StableHlo.after hostOps0 (W0 m ρ c)) (Proc.devRef .tc main_v3) = _
  after_results_simp <;> rfl

theorem w2_arg0 (c : Dev nD) : W2 m ρ c (Proc.devRef .tc main_arg0) = (m ((c : Thread nD τ).loc main_arg0)) := by
  show StableHlo.after hostOps0_1 (StableHlo.after hostOps0 (W0 m ρ c)) (Proc.devRef .tc main_arg0) = _
  after_results_simp <;> rfl

theorem w2_arg2 (c : Dev nD) : W2 m ρ c (Proc.devRef .tc main_arg2) = (m ((c : Thread nD τ).loc main_arg2)) := by
  show StableHlo.after hostOps0_1 (StableHlo.after hostOps0 (W0 m ρ c)) (Proc.devRef .tc main_arg2) = _
  after_results_simp <;> rfl

theorem w2_arg4 (c : Dev nD) : W2 m ρ c (Proc.devRef .tc main_arg4) = (m ((c : Thread nD τ).loc main_arg4)) := by
  show StableHlo.after hostOps0_1 (StableHlo.after hostOps0 (W0 m ρ c)) (Proc.devRef .tc main_arg4) = _
  after_results_simp <;> rfl

theorem w1_pos (c : Dev nD) : W1 m ρ c (Proc.devRef .tc main_v12) = val_main_v8 (F := Ideal) (m ((c : Thread nD τ).loc main_arg1)) (m ((c : Thread nD τ).loc main_arg2)) := by
  show StableHlo.after hostOps0 (W0 m ρ c) (Proc.devRef .tc main_v12) = _
  after_results_simp <;> rfl

theorem w1_rsqrt (c : Dev nD) : W1 m ρ c (Proc.devRef .tc main_v15) = val_main_v11 (F := Ideal) (m ((c : Thread nD τ).loc main_arg1)) (m ((c : Thread nD τ).loc main_arg2)) := by
  show StableHlo.after hostOps0 (W0 m ρ c) (Proc.devRef .tc main_v15) = _
  after_results_simp <;> rfl

theorem w1_zero (c : Dev nD) : W1 m ρ c (Proc.devRef .tc main_cst_2) = val_main_cst_2 (F := Ideal) := by
  show StableHlo.after hostOps0 (W0 m ρ c) (Proc.devRef .tc main_cst_2) = _
  after_results_simp <;> rfl

/-- The select of the inverse square root where the degree is positive, zero elsewhere, over any contents. -/
theorem where_stage (Wg : Valuation τ sig (Elt Ideal)) :
    StableHlo.after hostOps0_1 Wg (Proc.devRef .tc main_v16)
      = (select (Wg (Proc.devRef .tc main_v12)) (Wg (Proc.devRef .tc main_v15))
          (broadcastInDim S100000 ![] bcast_S_S100000 (id (Wg (Proc.devRef .tc main_cst_2)))) : FVec Ideal S100000 .f32) := by
  after_results_simp <;> rfl

/-- Each node's factor: the reference's. -/
theorem node_factor (c : Dev nD) :
    W2 m ρ c (Proc.devRef .tc main_v16) = val_main_v12 (F := Ideal) (m ((c : Thread nD τ).loc main_arg1)) (m ((c : Thread nD τ).loc main_arg2)) := by
  refine (where_stage (W1 m ρ c)).trans ?_
  rw [w1_pos m ρ c, w1_rsqrt m ρ c, w1_zero m ρ c]
  rfl

/-! ## After the third stretch: the normalised weights and the first layer's propagated features -/

/-- The normalised edge weights. -/
theorem norm_eq (c : Dev nD) :
    W3 m ρ c (Proc.devRef .tc main_v33) = val_main_v29 (F := Ideal) (m ((c : Thread nD τ).loc main_arg1)) (m ((c : Thread nD τ).loc main_arg2)) := by
  have h5 := src_norm m ρ c
  have h7 := dst_norm m ρ c
  have h16 := node_factor m ρ c
  have h2 := w2_arg2 m ρ c
  show StableHlo.after hostOps0_2 (W2 m ρ c) (Proc.devRef .tc main_v33) = _
  generalize W2 m ρ c = Wg at h5 h7 h16 h2 ⊢
  after_results_simp
  rw [h5, h7, h16, h2]
  rfl

/-- The input features propagated once. -/
theorem tx1_eq (c : Dev nD) :
    W3 m ρ c (Proc.devRef .tc main_v46) = val_main_v49 (F := Ideal) (m ((c : Thread nD τ).loc main_arg0)) (m ((c : Thread nD τ).loc main_arg1)) (m ((c : Thread nD τ).loc main_arg2)) := by
  have h5 := src_norm m ρ c
  have h7 := dst_norm m ρ c
  have h16 := node_factor m ρ c
  have h2 := w2_arg2 m ρ c
  have h1 := src_prop m ρ c
  have h3 := dst_prop m ρ c
  have h0 := w2_arg0 m ρ c
  show StableHlo.after hostOps0_2 (W2 m ρ c) (Proc.devRef .tc main_v46) = _
  generalize W2 m ρ c = Wg at h5 h7 h16 h2 h1 h3 h0 ⊢
  after_results_simp
  rw [h5, h7, h16, h2, h1, h3, h0]
  rfl

/-- Twice the once-propagated features propagated again, minus the input features. -/
theorem tx2_eq (c : Dev nD) :
    W3 m ρ c (Proc.devRef .tc main_v62) = val_main_v69 (F := Ideal) (m ((c : Thread nD τ).loc main_arg0)) (m ((c : Thread nD τ).loc main_arg1)) (m ((c : Thread nD τ).loc main_arg2)) := by
  have h5 := src_norm m ρ c
  have h7 := dst_norm m ρ c
  have h16 := node_factor m ρ c
  have h2 := w2_arg2 m ρ c
  have h1 := src_prop m ρ c
  have h3 := dst_prop m ρ c
  have h0 := w2_arg0 m ρ c
  show StableHlo.after hostOps0_2 (W2 m ρ c) (Proc.devRef .tc main_v62) = _
  generalize W2 m ρ c = Wg at h5 h7 h16 h2 h1 h3 h0 ⊢
  after_results_simp
  rw [h5, h7, h16, h2, h1, h3, h0]
  rfl

/-- A vector reshaped to one row is the vector broadcast to one row (64 channels). -/
theorem row_of_vec64 (x : (⟨1, ![64]⟩ : Shape).Idx → EReal) (h : (⟨1, ![64]⟩ : Shape).ShapeCasts ⟨2, ![1, 64]⟩) :
    shapeCast ⟨2, ![1, 64]⟩ x h = val_main_v74 (F := Ideal) x := by
  funext i
  obtain ⟨u, q, rfl⟩ : ∃ (u : Fin 1) (q : Fin 64), i = ix2 u q := ⟨i 0, i 1, eq_ix2 i⟩
  rw [shapeCast_a_1a_apply, val_main_v74_apply]
  exact congrArg x (funext fun a => match a with | ⟨0, _⟩ => rfl)

/-- A vector reshaped to one row is the vector broadcast to one row (40 channels). -/
theorem row_of_vec40 (x : (⟨1, ![40]⟩ : Shape).Idx → EReal) (h : (⟨1, ![40]⟩ : Shape).ShapeCasts ⟨2, ![1, 40]⟩) :
    shapeCast ⟨2, ![1, 40]⟩ x h = val_main_v122 (F := Ideal) x := by
  funext i
  obtain ⟨u, q, rfl⟩ : ∃ (u : Fin 1) (q : Fin 40), i = ix2 u q := ⟨i 0, i 1, eq_ix2 i⟩
  rw [shapeCast_a_1a_apply, val_main_v122_apply]
  exact congrArg x (funext fun a => match a with | ⟨0, _⟩ => rfl)

/-- The first bias as a row. -/
theorem bias1_eq (c : Dev nD) :
    W3 m ρ c (Proc.devRef .tc main_v63) = val_main_v74 (F := Ideal) (m ((c : Thread nD τ).loc main_arg4)) := by
  have h4 := w2_arg4 m ρ c
  show StableHlo.after hostOps0_2 (W2 m ρ c) (Proc.devRef .tc main_v63) = _
  generalize W2 m ρ c = Wg at h4 ⊢
  after_results_simp
  rw [h4]
  exact row_of_vec64 _ _

/-! ## What the later segments still read, as it stands at the first combine step's entry -/

theorem w3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

theorem w3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

theorem w3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

theorem w3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl

theorem w3_src (c : Dev nD) : W3 m ρ c (Proc.devRef .tc main_v1) = val_main_v79 (F := Ideal) (m ((c : Thread nD τ).loc main_arg1)) := by
  show StableHlo.after hostOps0_2 (StableHlo.after hostOps0_1 (StableHlo.after hostOps0 (W0 m ρ c))) (Proc.devRef .tc main_v1) = _
  after_results_simp <;> rfl

theorem w3_dst (c : Dev nD) : W3 m ρ c (Proc.devRef .tc main_v3) = val_main_v81 (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

end Cert.KernelIdeal.Host

end
-- ==== Proof.Spec.lean ====
/-
  One layer of a three-term Chebyshev graph convolution, as a function of whole arrays, entry by entry, over the
  extended reals. Given the three propagated feature arrays t0, t1, t2 (rows are nodes), the stack w of the three weight
  matrices and the bias as a one-row array b, the layer's affine part at node r and output channel q is
      ((Σ_k t0[r,k]·w[0,k,q] + Σ_k t1[r,k]·w[1,k,q]) + Σ_k t2[r,k]·w[2,k,q]) + b[0,q],
  the three products added left to right and the bias last. The first layer takes the maximum of that with zero;
  the second layer is the affine part itself. Both programs compute exactly this, each in its own arrangement:
  one as whole-array products, the other block of rows by block of rows.
-/
import Idealize.ShloMosaic.PureOps.Ideal
import Idealize.ShloMosaic.Lib.ValueIdx

noncomputable section

namespace Cert.Cheb

open Idealize.ShloMosaic Idealize.ShloMosaic.ValueIdx

/-- The first layer's affine part at node `r`, channel `q`: 128 input channels, 64 output channels. -/
def affine1 (t0 t1 t2 : (⟨2, ![100000, 128]⟩ : Shape).Idx → EReal) (w : (⟨3, ![3, 128, 64]⟩ : Shape).Idx → EReal)
    (b : (⟨2, ![1, 64]⟩ : Shape).Idx → EReal) (r : Fin 100000) (q : Fin 64) : EReal :=
  (((∑ k : Fin 128, t0 (ix2 r k) * w (ix3 (0 : Fin 3) k q)) + (∑ k : Fin 128, t1 (ix2 r k) * w (ix3 (1 : Fin 3) k q)))
    + (∑ k : Fin 128, t2 (ix2 r k) * w (ix3 (2 : Fin 3) k q))) + b (ix2 (0 : Fin 1) q)

/-- The first layer: the affine part, then the maximum with zero. -/
def layer1 (t0 t1 t2 : (⟨2, ![100000, 128]⟩ : Shape).Idx → EReal) (w : (⟨3, ![3, 128, 64]⟩ : Shape).Idx → EReal)
    (b : (⟨2, ![1, 64]⟩ : Shape).Idx → EReal) : (⟨2, ![100000, 64]⟩ : Shape).Idx → EReal :=
  fun i => max (affine1 t0 t1 t2 w b (i 0) (i 1)) (Ideal.ofBits .f32 0x00000000#32)

/-- The second layer's affine part at node `r`, channel `q`: 64 input channels, 40 output channels. -/
def affine2 (t0 t1 t2 : (⟨2, ![100000, 64]⟩ : Shape).Idx → EReal) (w : (⟨3, ![3, 64, 40]⟩ : Shape).Idx → EReal)
    (b : (⟨2, ![1, 40]⟩ : Shape).Idx → EReal) (r : Fin 100000) (q : Fin 40) : EReal :=
  (((∑ k : Fin 64, t0 (ix2 r k) * w (ix3 (0 : Fin 3) k q)) + (∑ k : Fin 64, t1 (ix2 r k) * w (ix3 (1 : Fin 3) k q)))
    + (∑ k : Fin 64, t2 (ix2 r k) * w (ix3 (2 : Fin 3) k q))) + b (ix2 (0 : Fin 1) q)

/-- The second layer: the affine part, no activation. -/
def layer2 (t0 t1 t2 : (⟨2, ![100000, 64]⟩ : Shape).Idx → EReal) (w : (⟨3, ![3, 64, 40]⟩ : Shape).Idx → EReal)
    (b : (⟨2, ![1, 40]⟩ : Shape).Idx → EReal) : (⟨2, ![100000, 40]⟩ : Shape).Idx → EReal :=
  fun i => affine2 t0 t1 t2 w b (i 0) (i 1)

end Cert.Cheb

end
-- ==== Proof.Pay0.lean ====
/-
  The body of one Chebyshev combine step at a block of 5000 rows, read entry by entry at the ideal instance.
  The block product of a [5000, 128] slab of rows with a [128, 64] weight matrix, accumulated into zero, is at
  entry (p, q) the plain sum over k of row p's k-th entry times the weight's (k, q) entry; a change of float
  format is the identity on the extended reals, so the bf16 operands are the f32 ones. The stored value is
  the three products added left to right, plus the bias row, and the maximum of that with zero.
-/
import proofs.«168913_j40604620816841_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay0

open Cert.KernelIdeal Cert.KernelIdeal.Gen Idealize.ShloMosaic Idealize.ShloMosaic.TcCoe Idealize.ShloMosaic.ValueIdx

theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into a zero accumulator, at entry (p, q): the sum over the contracted axis. -/
theorem matmul_entry (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-- One term of the combine: a slab of rows times the weight slice loaded as a [1, 128, 64] block. -/
theorem term_entry (x : FVec Ideal S5000x128 .f32) (w : FVec Ideal S1x128x64 .f32) (p : Fin 5000) (q : Fin 64) :
    matmul dot_S5000x128_S128x64_S5000x64_1_0_0_1_n_n none (truncf .bf16 x bitsLt_bf16_f32)
        (truncf .bf16 (shapeCast S128x64 w shapeCasts_S1x128x64_S128x64) bitsLt_bf16_f32) (constant S5000x64 .f32 0x00000000#32) (ix2 p q)
      = ∑ k : Fin 128, x (ix2 p k) * w (ix3 (0 : Fin 1) k q) :=
  (matmul_entry _ _ p q).trans (Finset.sum_congr rfl fun k _ =>
    congrArg (x (ix2 p k) * ·) (shapeCast_1ab_ab_apply w shapeCasts_S1x128x64_S128x64 k q))

/-- The same with the slab first cast to its own shape. -/
theorem term_entry' (x : FVec Ideal S5000x128 .f32) (w : FVec Ideal S1x128x64 .f32) (p : Fin 5000) (q : Fin 64) :
    matmul dot_S5000x128_S128x64_S5000x64_1_0_0_1_n_n none (truncf .bf16 (shapeCast S5000x128 x shapeCasts_S5000x128_S5000x128) bitsLt_bf16_f32)
        (truncf .bf16 (shapeCast S128x64 w shapeCasts_S1x128x64_S128x64) bitsLt_bf16_f32) (constant S5000x64 .f32 0x00000000#32) (ix2 p q)
      = ∑ k : Fin 128, x (ix2 p k) * w (ix3 (0 : Fin 1) k q) := by
  rw [shapeCast_self]
  exact term_entry x w p q

/-- The bias row broadcast over the block's rows, at entry (p, q). -/
theorem bias_entry (b : FVec Ideal S1x64 .f32) (p : Fin 5000) (q : Fin 64) :
    broadcastTo S5000x64 (shapeCast S1x64 b shapeCasts_S1x64_S1x64) broadcasts_S1x64_S5000x64 (ix2 p q) = b (ix2 (0 : Fin 1) q) := by
  rw [shapeCast_self]
  exact broadcastTo_1b_ab_apply b broadcasts_S1x64_S5000x64 p q

/-- What the body stores, at entry (p, q) of the block. -/
theorem pay_entry (x0 x1 x2 : FVec Ideal S5000x128 .f32) (w0 w1 w2 : FVec Ideal S1x128x64 .f32) (b : FVec Ideal S1x64 .f32)
    (p : Fin 5000) (q : Fin 64) :
    k0_pay1 x0 x1 x2 w0 w1 w2 b (ix2 p q)
      = max ((((∑ k : Fin 128, x0 (ix2 p k) * w0 (ix3 (0 : Fin 1) k q)) + (∑ k : Fin 128, x1 (ix2 p k) * w1 (ix3 (0 : Fin 1) k q)))
          + (∑ k : Fin 128, x2 (ix2 p k) * w2 (ix3 (0 : Fin 1) k q))) + b (ix2 (0 : Fin 1) q)) (Ideal.ofBits .f32 0x00000000#32) :=
  congrArg₂ max (congrArg₂ (· + ·) (congrArg₂ (· + ·) (congrArg₂ (· + ·) (term_entry x0 w0 p q) (term_entry' x1 w1 p q)) (term_entry' x2 w2 p q))
    (bias_entry b p q)) rfl

end Cert.KernelIdeal.Pay0

end
-- ==== Proof.Region0.lean ====
/-
  From blocks of rows to the whole array, for the first combine step. The step runs over 20 grid points; point t
  reads rows 5000·t … 5000·t + 4999 of each of the three feature arrays, the whole weight stack and the whole bias
  row, and writes rows 5000·t … 5000·t + 4999 of the result. An entry (r, q) of the result therefore depends on row r of
  the three feature arrays only, and what point t writes back is block t of ONE function of the whole arrays: the
  layer of Proof/Spec.lean. The 20 blocks tile the 100000 rows, so after the run the result array IS that function
  of the arrays as the step found them.
-/
import proofs.«168913_j40604620816841_1_alg».proof.Proof.Gen.KernelIdeal.Frame
import proofs.«168913_j40604620816841_1_alg».proof.Proof.Spec
import proofs.«168913_j40604620816841_1_alg».proof.Proof.Pay0
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The printed index maps over the 20 points: the three feature windows and the result window move together along
    the rows and stay at column block 0; the weight and bias windows stay at block 0; the result's row block is the
    point's number. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of feature array 0 is row 5000·t + p of the array: the row the result's block names. -/
theorem read_feat0 (c : Dev nD) (t : Fin cfg0.N) (p : Fin 5000) (q : Fin 64) (k : Fin 128) :
    iblk0 V c 0 t (ix2 p k)
      = (V c main_arg0 : S100000x128.Idx → EReal) (ix2 ((((cfg0.win 5).blk t).view.emb (ix2 p q)) 0) k) := by
  obtain ⟨e00, e01, e10, e11, e20, e21, e30, e31, e32, e40, e41, e50, e51⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = win0_5.index t (0 : Fin 2) * 5000 + 1 * p.val; omega
  | ⟨1, _⟩ => show win0_0.index t (1 : Fin 2) * 128 + 1 * k.val = k.val; omega

/-- Row p of point t's block of feature array 1 is row 5000·t + p of the array: the row the result's block names. -/
theorem read_feat1 (c : Dev nD) (t : Fin cfg0.N) (p : Fin 5000) (q : Fin 64) (k : Fin 128) :
    iblk0 V c 1 t (ix2 p k)
      = (V c main_v46 : S100000x128.Idx → EReal) (ix2 ((((cfg0.win 5).blk t).view.emb (ix2 p q)) 0) k) := by
  obtain ⟨e00, e01, e10, e11, e20, e21, e30, e31, e32, e40, e41, e50, e51⟩ := idx_facts t
  show V c main_v46 (((cfg0.win 1).blk t).view.emb (ix2 p k)) = _
  refine congrArg (V c main_v46) (funext fun a => Fin.ext ?_)
  match a with
  | ⟨0, _⟩ => show win0_1.index t (0 : Fin 2) * 5000 + 1 * p.val = win0_5.index t (0 : Fin 2) * 5000 + 1 * p.val; omega
  | ⟨1, _⟩ => show win0_1.index t (1 : Fin 2) * 128 + 1 * k.val = k.val; omega

/-- Row p of point t's block of feature array 2 is row 5000·t + p of the array: the row the result's block names. -/
theorem read_feat2 (c : Dev nD) (t : Fin cfg0.N) (p : Fin 5000) (q : Fin 64) (k : Fin 128) :
    iblk0 V c 2 t (ix2 p k)
      = (V c main_v62 : S100000x128.Idx → EReal) (ix2 ((((cfg0.win 5).blk t).view.emb (ix2 p q)) 0) k) := by
  obtain ⟨e00, e01, e10, e11, e20, e21, e30, e31, e32, e40, e41, e50, e51⟩ := idx_facts t
  show V c main_v62 (((cfg0.win 2).blk t).view.emb (ix2 p k)) = _
  refine congrArg (V c main_v62) (funext fun a => Fin.ext ?_)
  match a with
  | ⟨0, _⟩ => show win0_2.index t (0 : Fin 2) * 5000 + 1 * p.val = win0_5.index t (0 : Fin 2) * 5000 + 1 * p.val; omega
  | ⟨1, _⟩ => show win0_2.index t (1 : Fin 2) * 128 + 1 * k.val = k.val; omega

/-- The body's load of weight matrix 0 out of the staged stack reads the stack at (0, k, q). -/
theorem read_weight0 (c : Dev nD) (t : Fin cfg0.N) (p : Fin 5000) (q : Fin 64) (k : Fin 128) :
    View.ld (iblk0 V c 3 t) r0_1 (ix3 (0 : Fin 1) k q)
      = (V c main_arg3 : S3x128x64.Idx → EReal) (ix3 (0 : Fin 3) k ((((cfg0.win 5).blk t).view.emb (ix2 p q)) 1)) := by
  obtain ⟨e00, e01, e10, e11, e20, e21, e30, e31, e32, e40, e41, e50, e51⟩ := idx_facts t
  show V c main_arg3 (((cfg0.win 3).blk t).view.emb (r0_1.emb (ix3 (0 : Fin 1) k q))) = _
  refine congrArg (V c main_arg3) (funext fun a => Fin.ext ?_)
  match a with
  | ⟨0, _⟩ => show win0_3.index t (0 : Fin 3) * 3 + 1 * (0 + 1 * 0) = 0; omega
  | ⟨1, _⟩ => show win0_3.index t (1 : Fin 3) * 128 + 1 * (0 + 1 * k.val) = k.val; omega
  | ⟨2, _⟩ => show win0_3.index t (2 : Fin 3) * 64 + 1 * (0 + 1 * q.val) = win0_5.index t (1 : Fin 2) * 64 + 1 * q.val; omega

/-- The body's load of weight matrix 1 out of the staged stack reads the stack at (1, k, q). -/
theorem read_weight1 (c : Dev nD) (t : Fin cfg0.N) (p : Fin 5000) (q : Fin 64) (k : Fin 128) :
    View.ld (iblk0 V c 3 t) r0_2 (ix3 (0 : Fin 1) k q)
      = (V c main_arg3 : S3x128x64.Idx → EReal) (ix3 (1 : Fin 3) k ((((cfg0.win 5).blk t).view.emb (ix2 p q)) 1)) := by
  obtain ⟨e00, e01, e10, e11, e20, e21, e30, e31, e32, e40, e41, e50, e51⟩ := idx_facts t
  show V c main_arg3 (((cfg0.win 3).blk t).view.emb (r0_2.emb (ix3 (0 : Fin 1) k q))) = _
  refine congrArg (V c main_arg3) (funext fun a => Fin.ext ?_)
  match a with
  | ⟨0, _⟩ => show win0_3.index t (0 : Fin 3) * 3 + 1 * (1 + 1 * 0) = 1; omega
  | ⟨1, _⟩ => show win0_3.index t (1 : Fin 3) * 128 + 1 * (0 + 1 * k.val) = k.val; omega
  | ⟨2, _⟩ => show win0_3.index t (2 : Fin 3) * 64 + 1 * (0 + 1 * q.val) = win0_5.index t (1 : Fin 2) * 64 + 1 * q.val; omega

/-- The body's load of weight matrix 2 out of the staged stack reads the stack at (2, k, q). -/
theorem read_weight2 (c : Dev nD) (t : Fin cfg0.N) (p : Fin 5000) (q : Fin 64) (k : Fin 128) :
    View.ld (iblk0 V c 3 t) r0_3 (ix3 (0 : Fin 1) k q)
      = (V c main_arg3 : S3x128x64.Idx → EReal) (ix3 (2 : Fin 3) k ((((cfg0.win 5).blk t).view.emb (ix2 p q)) 1)) := by
  obtain ⟨e00, e01, e10, e11, e20, e21, e30, e31, e32, e40, e41, e50, e51⟩ := idx_facts t
  show V c main_arg3 (((cfg0.win 3).blk t).view.emb (r0_3.emb (ix3 (0 : Fin 1) k q))) = _
  refine congrArg (V c main_arg3) (funext fun a => Fin.ext ?_)
  match a with
  | ⟨0, _⟩ => show win0_3.index t (0 : Fin 3) * 3 + 1 * (2 + 1 * 0) = 2; omega
  | ⟨1, _⟩ => show win0_3.index t (1 : Fin 3) * 128 + 1 * (0 + 1 * k.val) = k.val; omega
  | ⟨2, _⟩ => show win0_3.index t (2 : Fin 3) * 64 + 1 * (0 + 1 * q.val) = win0_5.index t (1 : Fin 2) * 64 + 1 * q.val; omega

/-- The staged bias row at channel q is the bias array's one row at q. -/
theorem read_bias (c : Dev nD) (t : Fin cfg0.N) (p : Fin 5000) (q : Fin 64) :
    iblk0 V c 4 t (ix2 (0 : Fin 1) q)
      = (V c main_v63 : S1x64.Idx → EReal) (ix2 (0 : Fin 1) ((((cfg0.win 5).blk t).view.emb (ix2 p q)) 1)) := by
  obtain ⟨e00, e01, e10, e11, e20, e21, e30, e31, e32, e40, e41, e50, e51⟩ := idx_facts t
  show V c main_v63 (((cfg0.win 4).blk t).view.emb (ix2 (0 : Fin 1) q)) = _
  refine congrArg (V c main_v63) (funext fun a => Fin.ext ?_)
  match a with
  | ⟨0, _⟩ => show win0_4.index t (0 : Fin 2) * 1 + 1 * 0 = 0; omega
  | ⟨1, _⟩ => show win0_4.index t (1 : Fin 2) * 64 + 1 * q.val = win0_5.index t (1 : Fin 2) * 64 + 1 * q.val; omega

/-- WHAT POINT t WRITES BACK is block t of the layer of the arrays as the step finds them. -/
theorem flushed_eq (c : Dev nD) (t : Fin cfg0.N) :
    (dat0 V c).flushed 5 t = ((cfg0.win 5).blk t).view.read (Elt Ideal)
      (Cheb.layer1 (V c main_arg0) (V c main_v46) (V c main_v62) (V c main_arg3) (V c main_v63)) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S1x64) zero2]
  show (fun j : S5000x64.Idx => k0_pay1 (iblk0 V c 0 t) (iblk0 V c 1 t) (iblk0 V c 2 t) (View.ld (iblk0 V c 3 t) r0_1)
      (View.ld (iblk0 V c 3 t) r0_2) (View.ld (iblk0 V c 3 t) r0_3) (iblk0 V c 4 t) j)
    = fun j : S5000x64.Idx => Cheb.layer1 (V c main_arg0) (V c main_v46) (V c main_v62) (V c main_arg3) (V c main_v63) (((cfg0.win 5).blk t).view.emb j)
  funext j
  obtain ⟨p, q, rfl⟩ : ∃ (p : Fin 5000) (q : Fin 64), j = ix2 p q := ⟨j 0, j 1, eq_ix2 j⟩
  refine (Pay0.pay_entry (iblk0 V c 0 t) (iblk0 V c 1 t) (iblk0 V c 2 t) (View.ld (iblk0 V c 3 t) r0_1)
      (View.ld (iblk0 V c 3 t) r0_2) (View.ld (iblk0 V c 3 t) r0_3) (iblk0 V c 4 t) p q).trans ?_
  show max _ _ = max (Cheb.affine1 _ _ _ _ _ _ _) _
  unfold Cheb.affine1
  exact congrArg₂ max (congrArg₂ (· + ·) (congrArg₂ (· + ·) (congrArg₂ (· + ·)
      (Finset.sum_congr rfl fun k _ => congrArg₂ (· * ·) (read_feat0 V c t p q k) (read_weight0 V c t p q k))
      (Finset.sum_congr rfl fun k _ => congrArg₂ (· * ·) (read_feat1 V c t p q k) (read_weight1 V c t p q k)))
      (Finset.sum_congr rfl fun k _ => congrArg₂ (· * ·) (read_feat2 V c t p q k) (read_weight2 V c t p q k))) (read_bias V c t p q)) rfl

/-- An index of the result array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v64).slice (win0_5.rect t)).set ↔ _
  rw [View.set_slice_whole, Rect.mem_set_unit]
  exact Iff.rfl

/-- The 20 blocks of 5000 rows tile the array: row r lies in the block of point r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  have hlt : (i 0).val / 5000 < cfg0.N := by show (i 0).val / 5000 < grid0.N; rw [hN]; omega
  obtain ⟨-, -, -, -, -, -, -, -, -, -, -, e50, e51⟩ := idx_facts ⟨(i 0).val / 5000, hlt⟩
  have e50' : win0_5.index ⟨(i 0).val / 5000, hlt⟩ (0 : Fin 2) = (i 0).val / 5000 := e50
  refine ⟨⟨(i 0).val / 5000, hlt⟩, flush0_5 _, ?_⟩
  rw [mem_blk]
  intro a
  match a with
  | ⟨0, _⟩ => show win0_5.index ⟨(i 0).val / 5000, hlt⟩ (0 : Fin 2) * 5000 ≤ (i 0).val ∧ (i 0).val < win0_5.index ⟨(i 0).val / 5000, hlt⟩ (0 : Fin 2) * 5000 + 5000; omega
  | ⟨1, _⟩ => show win0_5.index ⟨(i 0).val / 5000, hlt⟩ (1 : Fin 2) * 64 ≤ (i 1).val ∧ (i 1).val < win0_5.index ⟨(i 0).val / 5000, hlt⟩ (1 : Fin 2) * 64 + 64; omega

/-- THE RESULT ARRAY after the step: the layer of the arrays as the step found them. -/
theorem final (c : Dev nD) :
    (dat0 V c).arrAt 5 cfg0.N = Cheb.layer1 (V c main_arg0) (V c main_v46) (V c main_v62) (V c main_arg3) (V c main_v63) :=
  (dat0 V c).arrAt_eq_of_cover 5 _ (fun t _ => flushed_eq V c t) cover

end Cert.KernelIdeal.Region0

end
-- ==== Proof.Pay1.lean ====
/-
  The body of one Chebyshev combine step at a block of 5000 rows, read entry by entry at the ideal instance.
  The block product of a [5000, 64] slab of rows with a [64, 40] weight matrix, accumulated into zero, is at
  entry (p, q) the plain sum over k of row p's k-th entry times the weight's (k, q) entry; a change of float
  format is the identity on the extended reals, so the bf16 operands are the f32 ones. The stored value is
  the three products added left to right, plus the bias row.
-/
import proofs.«168913_j40604620816841_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay1

open Cert.KernelIdeal Cert.KernelIdeal.Gen Idealize.ShloMosaic Idealize.ShloMosaic.TcCoe Idealize.ShloMosaic.ValueIdx

theorem lhs_row (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem lhs_col (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
theorem rhs_row (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
theorem rhs_col (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The block product into a zero accumulator, at entry (p, q): the sum over the contracted axis. -/
theorem matmul_entry (l : FVec Ideal S5000x64 .bf16) (r : FVec Ideal S64x40 .bf16) (p : Fin 5000) (q : Fin 40) :
    matmul dot_S5000x64_S64x40_S5000x40_1_0_0_1_n_n none l r (constant S5000x40 .f32 0x00000000#32) (ix2 p q)
      = ∑ k : Fin 64, l (ix2 p k) * r (ix2 k q) := by
  refine (Ideal.matmul_constant_zero_apply dot_S5000x64_S64x40_S5000x40_1_0_0_1_n_n none l r (ix2 p q)).trans ?_
  rw [← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have el : dot_S5000x64_S64x40_S5000x40_1_0_0_1_n_n.lhsIdx (ix2 p q) ((ValueIdx.contrEquiv1 dot_S5000x64_S64x40_S5000x40_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x40_S5000x40_1_0_0_1_n_n.rhsIdx (ix2 p q) ((ValueIdx.contrEquiv1 dot_S5000x64_S64x40_S5000x40_1_0_0_1_n_n 64 rfl rfl).symm k) = ix2 k q := funext fun a => Fin.ext (by
    match a with
    | ⟨0, _⟩ => exact (rhs_row _ _).trans hk
    | ⟨1, _⟩ => exact rhs_col _ _)
  rw [el, er]

/-- One term of the combine: a slab of rows times the weight slice loaded as a [1, 64, 40] block. -/
theorem term_entry (x : FVec Ideal S5000x64 .f32) (w : FVec Ideal S1x64x40 .f32) (p : Fin 5000) (q : Fin 40) :
    matmul dot_S5000x64_S64x40_S5000x40_1_0_0_1_n_n none (truncf .bf16 x bitsLt_bf16_f32)
        (truncf .bf16 (shapeCast S64x40 w shapeCasts_S1x64x40_S64x40) bitsLt_bf16_f32) (constant S5000x40 .f32 0x00000000#32) (ix2 p q)
      = ∑ k : Fin 64, x (ix2 p k) * w (ix3 (0 : Fin 1) k q) :=
  (matmul_entry _ _ p q).trans (Finset.sum_congr rfl fun k _ =>
    congrArg (x (ix2 p k) * ·) (shapeCast_1ab_ab_apply w shapeCasts_S1x64x40_S64x40 k q))

/-- The same with the slab first cast to its own shape. -/
theorem term_entry' (x : FVec Ideal S5000x64 .f32) (w : FVec Ideal S1x64x40 .f32) (p : Fin 5000) (q : Fin 40) :
    matmul dot_S5000x64_S64x40_S5000x40_1_0_0_1_n_n none (truncf .bf16 (shapeCast S5000x64 x shapeCasts_S5000x64_S5000x64) bitsLt_bf16_f32)
        (truncf .bf16 (shapeCast S64x40 w shapeCasts_S1x64x40_S64x40) bitsLt_bf16_f32) (constant S5000x40 .f32 0x00000000#32) (ix2 p q)
      = ∑ k : Fin 64, x (ix2 p k) * w (ix3 (0 : Fin 1) k q) := by
  rw [shapeCast_self]
  exact term_entry x w p q

/-- The bias row broadcast over the block's rows, at entry (p, q). -/
theorem bias_entry (b : FVec Ideal S1x40 .f32) (p : Fin 5000) (q : Fin 40) :
    broadcastTo S5000x40 (shapeCast S1x40 b shapeCasts_S1x40_S1x40) broadcasts_S1x40_S5000x40 (ix2 p q) = b (ix2 (0 : Fin 1) q) := by
  rw [shapeCast_self]
  exact broadcastTo_1b_ab_apply b broadcasts_S1x40_S5000x40 p q

/-- What the body stores, at entry (p, q) of the block. -/
theorem pay_entry (x0 x1 x2 : FVec Ideal S5000x64 .f32) (w0 w1 w2 : FVec Ideal S1x64x40 .f32) (b : FVec Ideal S1x40 .f32)
    (p : Fin 5000) (q : Fin 40) :
    k1_pay1 x0 x1 x2 w0 w1 w2 b (ix2 p q)
      = ((((∑ k : Fin 64, x0 (ix2 p k) * w0 (ix3 (0 : Fin 1) k q)) + (∑ k : Fin 64, x1 (ix2 p k) * w1 (ix3 (0 : Fin 1) k q)))
          + (∑ k : Fin 64, x2 (ix2 p k) * w2 (ix3 (0 : Fin 1) k q))) + b (ix2 (0 : Fin 1) q)) :=
  (congrArg₂ (· + ·) (congrArg₂ (· + ·) (congrArg₂ (· + ·) (term_entry' x0 w0 p q) (term_entry' x1 w1 p q)) (term_entry' x2 w2 p q))
    (bias_entry b p q))

end Cert.KernelIdeal.Pay1

end
-- ==== Proof.Region1.lean ====
/-
  From blocks of rows to the whole array, for the second combine step. The step runs over 20 grid points; point t
  reads rows 5000·t … 5000·t + 4999 of each of the three feature arrays, the whole weight stack and the whole bias
  row, and writes rows 5000·t … 5000·t + 4999 of the result. An entry (r, q) of the result therefore depends on row r of
  the three feature arrays only, and what point t writes back is block t of ONE function of the whole arrays: the
  layer of Proof/Spec.lean. The 20 blocks tile the 100000 rows, so after the run the result array IS that function
  of the arrays as the step found them.
-/
import proofs.«168913_j40604620816841_1_alg».proof.Proof.Gen.KernelIdeal.Frame
import proofs.«168913_j40604620816841_1_alg».proof.Proof.Spec
import proofs.«168913_j40604620816841_1_alg».proof.Proof.Pay1
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The printed index maps over the 20 points: the three feature windows and the result window move together along
    the rows and stay at column block 0; the weight and bias windows stay at block 0; the result's row block is the
    point's number. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of feature array 0 is row 5000·t + p of the array: the row the result's block names. -/
theorem read_feat0 (c : Dev nD) (t : Fin cfg1.N) (p : Fin 5000) (q : Fin 40) (k : Fin 64) :
    iblk1 V c 0 t (ix2 p k)
      = (V c main_v64 : S100000x64.Idx → EReal) (ix2 ((((cfg1.win 5).blk t).view.emb (ix2 p q)) 0) k) := by
  obtain ⟨e00, e01, e10, e11, e20, e21, e30, e31, e32, e40, e41, e50, e51⟩ := idx_facts t
  show V c main_v64 (((cfg1.win 0).blk t).view.emb (ix2 p k)) = _
  refine congrArg (V c main_v64) (funext fun a => Fin.ext ?_)
  match a with
  | ⟨0, _⟩ => show win1_0.index t (0 : Fin 2) * 5000 + 1 * p.val = win1_5.index t (0 : Fin 2) * 5000 + 1 * p.val; omega
  | ⟨1, _⟩ => show win1_0.index t (1 : Fin 2) * 64 + 1 * k.val = k.val; omega

/-- Row p of point t's block of feature array 1 is row 5000·t + p of the array: the row the result's block names. -/
theorem read_feat1 (c : Dev nD) (t : Fin cfg1.N) (p : Fin 5000) (q : Fin 40) (k : Fin 64) :
    iblk1 V c 1 t (ix2 p k)
      = (V c main_v77 : S100000x64.Idx → EReal) (ix2 ((((cfg1.win 5).blk t).view.emb (ix2 p q)) 0) k) := by
  obtain ⟨e00, e01, e10, e11, e20, e21, e30, e31, e32, e40, e41, e50, e51⟩ := idx_facts t
  show V c main_v77 (((cfg1.win 1).blk t).view.emb (ix2 p k)) = _
  refine congrArg (V c main_v77) (funext fun a => Fin.ext ?_)
  match a with
  | ⟨0, _⟩ => show win1_1.index t (0 : Fin 2) * 5000 + 1 * p.val = win1_5.index t (0 : Fin 2) * 5000 + 1 * p.val; omega
  | ⟨1, _⟩ => show win1_1.index t (1 : Fin 2) * 64 + 1 * k.val = k.val; omega

/-- Row p of point t's block of feature array 2 is row 5000·t + p of the array: the row the result's block names. -/
theorem read_feat2 (c : Dev nD) (t : Fin cfg1.N) (p : Fin 5000) (q : Fin 40) (k : Fin 64) :
    iblk1 V c 2 t (ix2 p k)
      = (V c main_v93 : S100000x64.Idx → EReal) (ix2 ((((cfg1.win 5).blk t).view.emb (ix2 p q)) 0) k) := by
  obtain ⟨e00, e01, e10, e11, e20, e21, e30, e31, e32, e40, e41, e50, e51⟩ := idx_facts t
  show V c main_v93 (((cfg1.win 2).blk t).view.emb (ix2 p k)) = _
  refine congrArg (V c main_v93) (funext fun a => Fin.ext ?_)
  match a with
  | ⟨0, _⟩ => show win1_2.index t (0 : Fin 2) * 5000 + 1 * p.val = win1_5.index t (0 : Fin 2) * 5000 + 1 * p.val; omega
  | ⟨1, _⟩ => show win1_2.index t (1 : Fin 2) * 64 + 1 * k.val = k.val; omega

/-- The body's load of weight matrix 0 out of the staged stack reads the stack at (0, k, q). -/
theorem read_weight0 (c : Dev nD) (t : Fin cfg1.N) (p : Fin 5000) (q : Fin 40) (k : Fin 64) :
    View.ld (iblk1 V c 3 t) r1_1 (ix3 (0 : Fin 1) k q)
      = (V c main_arg5 : S3x64x40.Idx → EReal) (ix3 (0 : Fin 3) k ((((cfg1.win 5).blk t).view.emb (ix2 p q)) 1)) := by
  obtain ⟨e00, e01, e10, e11, e20, e21, e30, e31, e32, e40, e41, e50, e51⟩ := idx_facts t
  show V c main_arg5 (((cfg1.win 3).blk t).view.emb (r1_1.emb (ix3 (0 : Fin 1) k q))) = _
  refine congrArg (V c main_arg5) (funext fun a => Fin.ext ?_)
  match a with
  | ⟨0, _⟩ => show win1_3.index t (0 : Fin 3) * 3 + 1 * (0 + 1 * 0) = 0; omega
  | ⟨1, _⟩ => show win1_3.index t (1 : Fin 3) * 64 + 1 * (0 + 1 * k.val) = k.val; omega
  | ⟨2, _⟩ => show win1_3.index t (2 : Fin 3) * 40 + 1 * (0 + 1 * q.val) = win1_5.index t (1 : Fin 2) * 40 + 1 * q.val; omega

/-- The body's load of weight matrix 1 out of the staged stack reads the stack at (1, k, q). -/
theorem read_weight1 (c : Dev nD) (t : Fin cfg1.N) (p : Fin 5000) (q : Fin 40) (k : Fin 64) :
    View.ld (iblk1 V c 3 t) r1_2 (ix3 (0 : Fin 1) k q)
      = (V c main_arg5 : S3x64x40.Idx → EReal) (ix3 (1 : Fin 3) k ((((cfg1.win 5).blk t).view.emb (ix2 p q)) 1)) := by
  obtain ⟨e00, e01, e10, e11, e20, e21, e30, e31, e32, e40, e41, e50, e51⟩ := idx_facts t
  show V c main_arg5 (((cfg1.win 3).blk t).view.emb (r1_2.emb (ix3 (0 : Fin 1) k q))) = _
  refine congrArg (V c main_arg5) (funext fun a => Fin.ext ?_)
  match a with
  | ⟨0, _⟩ => show win1_3.index t (0 : Fin 3) * 3 + 1 * (1 + 1 * 0) = 1; omega
  | ⟨1, _⟩ => show win1_3.index t (1 : Fin 3) * 64 + 1 * (0 + 1 * k.val) = k.val; omega
  | ⟨2, _⟩ => show win1_3.index t (2 : Fin 3) * 40 + 1 * (0 + 1 * q.val) = win1_5.index t (1 : Fin 2) * 40 + 1 * q.val; omega

/-- The body's load of weight matrix 2 out of the staged stack reads the stack at (2, k, q). -/
theorem read_weight2 (c : Dev nD) (t : Fin cfg1.N) (p : Fin 5000) (q : Fin 40) (k : Fin 64) :
    View.ld (iblk1 V c 3 t) r1_3 (ix3 (0 : Fin 1) k q)
      = (V c main_arg5 : S3x64x40.Idx → EReal) (ix3 (2 : Fin 3) k ((((cfg1.win 5).blk t).view.emb (ix2 p q)) 1)) := by
  obtain ⟨e00, e01, e10, e11, e20, e21, e30, e31, e32, e40, e41, e50, e51⟩ := idx_facts t
  show V c main_arg5 (((cfg1.win 3).blk t).view.emb (r1_3.emb (ix3 (0 : Fin 1) k q))) = _
  refine congrArg (V c main_arg5) (funext fun a => Fin.ext ?_)
  match a with
  | ⟨0, _⟩ => show win1_3.index t (0 : Fin 3) * 3 + 1 * (2 + 1 * 0) = 2; omega
  | ⟨1, _⟩ => show win1_3.index t (1 : Fin 3) * 64 + 1 * (0 + 1 * k.val) = k.val; omega
  | ⟨2, _⟩ => show win1_3.index t (2 : Fin 3) * 40 + 1 * (0 + 1 * q.val) = win1_5.index t (1 : Fin 2) * 40 + 1 * q.val; omega

/-- The staged bias row at channel q is the bias array's one row at q. -/
theorem read_bias (c : Dev nD) (t : Fin cfg1.N) (p : Fin 5000) (q : Fin 40) :
    iblk1 V c 4 t (ix2 (0 : Fin 1) q)
      = (V c main_v94 : S1x40.Idx → EReal) (ix2 (0 : Fin 1) ((((cfg1.win 5).blk t).view.emb (ix2 p q)) 1)) := by
  obtain ⟨e00, e01, e10, e11, e20, e21, e30, e31, e32, e40, e41, e50, e51⟩ := idx_facts t
  show V c main_v94 (((cfg1.win 4).blk t).view.emb (ix2 (0 : Fin 1) q)) = _
  refine congrArg (V c main_v94) (funext fun a => Fin.ext ?_)
  match a with
  | ⟨0, _⟩ => show win1_4.index t (0 : Fin 2) * 1 + 1 * 0 = 0; omega
  | ⟨1, _⟩ => show win1_4.index t (1 : Fin 2) * 40 + 1 * q.val = win1_5.index t (1 : Fin 2) * 40 + 1 * q.val; omega

/-- WHAT POINT t WRITES BACK is block t of the layer of the arrays as the step finds them. -/
theorem flushed_eq (c : Dev nD) (t : Fin cfg1.N) :
    (dat1 V c).flushed 5 t = ((cfg1.win 5).blk t).view.read (Elt Ideal)
      (Cheb.layer2 (V c main_v64) (V c main_v77) (V c main_v93) (V c main_arg5) (V c main_v94)) := by
  show (cfg1.win 5).cut (grid1.coords t) ((dat1 V c).after 5 t) = _
  rw [after1_5]
  unfold out1_5
  rw [View.canon_unit_zero zero2]
  simp only [View.ld_unit_zero (S := S5000x64) zero2, View.ld_unit_zero (S := S1x40) zero2]
  show (fun j : S5000x40.Idx => k1_pay1 (iblk1 V c 0 t) (iblk1 V c 1 t) (iblk1 V c 2 t) (View.ld (iblk1 V c 3 t) r1_1)
      (View.ld (iblk1 V c 3 t) r1_2) (View.ld (iblk1 V c 3 t) r1_3) (iblk1 V c 4 t) j)
    = fun j : S5000x40.Idx => Cheb.layer2 (V c main_v64) (V c main_v77) (V c main_v93) (V c main_arg5) (V c main_v94) (((cfg1.win 5).blk t).view.emb j)
  funext j
  obtain ⟨p, q, rfl⟩ : ∃ (p : Fin 5000) (q : Fin 40), j = ix2 p q := ⟨j 0, j 1, eq_ix2 j⟩
  refine (Pay1.pay_entry (iblk1 V c 0 t) (iblk1 V c 1 t) (iblk1 V c 2 t) (View.ld (iblk1 V c 3 t) r1_1)
      (View.ld (iblk1 V c 3 t) r1_2) (View.ld (iblk1 V c 3 t) r1_3) (iblk1 V c 4 t) p q).trans ?_
  show _ = Cheb.affine2 _ _ _ _ _ _ _
  unfold Cheb.affine2
  exact (congrArg₂ (· + ·) (congrArg₂ (· + ·) (congrArg₂ (· + ·)
      (Finset.sum_congr rfl fun k _ => congrArg₂ (· * ·) (read_feat0 V c t p q k) (read_weight0 V c t p q k))
      (Finset.sum_congr rfl fun k _ => congrArg₂ (· * ·) (read_feat1 V c t p q k) (read_weight1 V c t p q k)))
      (Finset.sum_congr rfl fun k _ => congrArg₂ (· * ·) (read_feat2 V c t p q k) (read_weight2 V c t p q k))) (read_bias V c t p q))

/-- An index of the result array is in point t's block iff each coordinate is in the block's range on its axis. -/
theorem mem_blk (t : Fin cfg1.N) (i : S100000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v95).slice (win1_5.rect t)).set ↔ _
  rw [View.set_slice_whole, Rect.mem_set_unit]
  exact Iff.rfl

/-- The 20 blocks of 5000 rows tile the array: row r lies in the block of point r / 5000. -/
theorem cover (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  have hN : grid1.N = 20 := N_1
  have hlt : (i 0).val / 5000 < cfg1.N := by show (i 0).val / 5000 < grid1.N; rw [hN]; omega
  obtain ⟨-, -, -, -, -, -, -, -, -, -, -, e50, e51⟩ := idx_facts ⟨(i 0).val / 5000, hlt⟩
  have e50' : win1_5.index ⟨(i 0).val / 5000, hlt⟩ (0 : Fin 2) = (i 0).val / 5000 := e50
  refine ⟨⟨(i 0).val / 5000, hlt⟩, flush1_5 _, ?_⟩
  rw [mem_blk]
  intro a
  match a with
  | ⟨0, _⟩ => show win1_5.index ⟨(i 0).val / 5000, hlt⟩ (0 : Fin 2) * 5000 ≤ (i 0).val ∧ (i 0).val < win1_5.index ⟨(i 0).val / 5000, hlt⟩ (0 : Fin 2) * 5000 + 5000; omega
  | ⟨1, _⟩ => show win1_5.index ⟨(i 0).val / 5000, hlt⟩ (1 : Fin 2) * 40 ≤ (i 1).val ∧ (i 1).val < win1_5.index ⟨(i 0).val / 5000, hlt⟩ (1 : Fin 2) * 40 + 40; omega

/-- THE RESULT ARRAY after the step: the layer of the arrays as the step found them. -/
theorem final (c : Dev nD) :
    (dat1 V c).arrAt 5 cfg1.N = Cheb.layer2 (V c main_v64) (V c main_v77) (V c main_v93) (V c main_arg5) (V c main_v94) :=
  (dat1 V c).arrAt_eq_of_cover 5 _ (fun t _ => flushed_eq V c t) cover

end Cert.KernelIdeal.Region1

end
-- ==== Proof.RefLayers.lean ====
/-
  The reference computes each layer with whole-array products: three products of a [100000, K] feature array with a
  [K, N] slice of the weight stack, added left to right, plus the bias broadcast over the rows (and, in the first layer,
  the maximum with zero). At the ideal instance a whole-array product at entry (r, q) is the sum over k of the left
  operand's (r, k) entry times the right operand's (k, q) entry, so each layer's result is the layer of Proof/Spec.lean
  of the reference's own three propagated arrays. Nothing is said here about how those arrays come about.
-/
import proofs.«168913_j40604620816841_1_alg».proof.Proof.Gen.ReferenceIdeal.Read
import proofs.«168913_j40604620816841_1_alg».proof.Proof.Spec

noncomputable section

namespace Cert.ReferenceIdeal.Layers

open Cert.ReferenceIdeal Cert.ReferenceIdeal.Read Idealize.ShloMosaic Idealize.ShloMosaic.TcCoe Idealize.ShloMosaic.ValueIdx

/-- The reference's weight matrix 0, taken as a slice of the stack and reshaped, read at (k, q): the stack at (0, k, q). -/
theorem w1_0 (i : S100000x64.Idx) (k : Fin 128) :
    idx_main_v34 (idx_main_v35 (ridx_main_v36 i k)) = ix3 (0 : Fin 3) k (i 1) := by
  have hk : k.val < 128 := k.isLt
  have h1 : (i 1).val < 64 := (i 1).isLt
  refine funext fun a => Fin.ext ?_
  match a with
  | ⟨0, _⟩ => rfl
  | ⟨1, _⟩ => show (k.val * 64 + (i 1).val) / 64 % 128 = k.val; omega
  | ⟨2, _⟩ => show (k.val * 64 + (i 1).val) % 64 = (i 1).val; omega

/-- The reference's weight matrix 1, taken as a slice of the stack and reshaped, read at (k, q): the stack at (1, k, q). -/
theorem w1_1 (i : S100000x64.Idx) (k : Fin 128) :
    idx_main_v50 (idx_main_v51 (ridx_main_v52 i k)) = ix3 (1 : Fin 3) k (i 1) := by
  have hk : k.val < 128 := k.isLt
  have h1 : (i 1).val < 64 := (i 1).isLt
  refine funext fun a => Fin.ext ?_
  match a with
  | ⟨0, _⟩ => rfl
  | ⟨1, _⟩ => show (k.val * 64 + (i 1).val) / 64 % 128 = k.val; omega
  | ⟨2, _⟩ => show (k.val * 64 + (i 1).val) % 64 = (i 1).val; omega

/-- The reference's weight matrix 2, taken as a slice of the stack and reshaped, read at (k, q): the stack at (2, k, q). -/
theorem w1_2 (i : S100000x64.Idx) (k : Fin 128) :
    idx_main_v70 (idx_main_v71 (ridx_main_v72 i k)) = ix3 (2 : Fin 3) k (i 1) := by
  have hk : k.val < 128 := k.isLt
  have h1 : (i 1).val < 64 := (i 1).isLt
  refine funext fun a => Fin.ext ?_
  match a with
  | ⟨0, _⟩ => rfl
  | ⟨1, _⟩ => show (k.val * 64 + (i 1).val) / 64 % 128 = k.val; omega
  | ⟨2, _⟩ => show (k.val * 64 + (i 1).val) % 64 = (i 1).val; omega

/-- The reference's weight matrix 0, taken as a slice of the stack and reshaped, read at (k, q): the stack at (0, k, q). -/
theorem w2_0 (i : S100000x40.Idx) (k : Fin 64) :
    idx_main_v82 (idx_main_v83 (ridx_main_v84 i k)) = ix3 (0 : Fin 3) k (i 1) := by
  have hk : k.val < 64 := k.isLt
  have h1 : (i 1).val < 40 := (i 1).isLt
  refine funext fun a => Fin.ext ?_
  match a with
  | ⟨0, _⟩ => rfl
  | ⟨1, _⟩ => show (k.val * 40 + (i 1).val) / 40 % 64 = k.val; omega
  | ⟨2, _⟩ => show (k.val * 40 + (i 1).val) % 40 = (i 1).val; omega

/-- The reference's weight matrix 1, taken as a slice of the stack and reshaped, read at (k, q): the stack at (1, k, q). -/
theorem w2_1 (i : S100000x40.Idx) (k : Fin 64) :
    idx_main_v98 (idx_main_v99 (ridx_main_v100 i k)) = ix3 (1 : Fin 3) k (i 1) := by
  have hk : k.val < 64 := k.isLt
  have h1 : (i 1).val < 40 := (i 1).isLt
  refine funext fun a => Fin.ext ?_
  match a with
  | ⟨0, _⟩ => rfl
  | ⟨1, _⟩ => show (k.val * 40 + (i 1).val) / 40 % 64 = k.val; omega
  | ⟨2, _⟩ => show (k.val * 40 + (i 1).val) % 40 = (i 1).val; omega

/-- The reference's weight matrix 2, taken as a slice of the stack and reshaped, read at (k, q): the stack at (2, k, q). -/
theorem w2_2 (i : S100000x40.Idx) (k : Fin 64) :
    idx_main_v118 (idx_main_v119 (ridx_main_v120 i k)) = ix3 (2 : Fin 3) k (i 1) := by
  have hk : k.val < 64 := k.isLt
  have h1 : (i 1).val < 40 := (i 1).isLt
  refine funext fun a => Fin.ext ?_
  match a with
  | ⟨0, _⟩ => rfl
  | ⟨1, _⟩ => show (k.val * 40 + (i 1).val) / 40 % 64 = k.val; omega
  | ⟨2, _⟩ => show (k.val * 40 + (i 1).val) % 40 = (i 1).val; omega

/-- The reference's first layer is `Cheb.layer1` of the input features, its two propagated arrays, the weight stack
    and the bias as a row. -/
theorem layer1_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S3x128x64, .f32⟩ : BufTy).Contents (Elt Ideal))
    (x4 : (⟨S64, .f32⟩ : BufTy).Contents (Elt Ideal)) :
    val_main_v77 (F := Ideal) x0 x1 x2 x3 x4
      = Cheb.layer1 x0 (val_main_v49 (F := Ideal) x0 x1 x2) (val_main_v69 (F := Ideal) x0 x1 x2) x3 (val_main_v74 (F := Ideal) x4) := by
  funext i
  rw [val_main_v77_apply, val_main_v76_apply, val_main_v73_apply, val_main_v53_apply, val_main_v36_apply, val_main_v52_apply,
    val_main_v72_apply, val_main_v75_apply, val_main_call1_v0_apply, val_main_call1_cst_apply]
  show max (((_ + _) + _) + _) _ = max (Cheb.affine1 _ _ _ _ _ _ _) _
  unfold Cheb.affine1
  exact congrArg₂ max (congrArg₂ (· + ·) (congrArg₂ (· + ·) (congrArg₂ (· + ·)
    (Finset.sum_congr rfl fun k _ => congrArg₂ (· * ·) (congrArg x0 (funext fun a => match a with | ⟨0, _⟩ => rfl | ⟨1, _⟩ => rfl))
      ((val_main_v35_apply x3 _).trans ((val_main_v34_apply x3 _).trans (congrArg x3 (w1_0 i k)))))
    (Finset.sum_congr rfl fun k _ => congrArg₂ (· * ·) (congrArg (val_main_v49 (F := Ideal) x0 x1 x2) (funext fun a => match a with | ⟨0, _⟩ => rfl | ⟨1, _⟩ => rfl))
      ((val_main_v51_apply x3 _).trans ((val_main_v50_apply x3 _).trans (congrArg x3 (w1_1 i k))))))
    (Finset.sum_congr rfl fun k _ => congrArg₂ (· * ·) (congrArg (val_main_v69 (F := Ideal) x0 x1 x2) (funext fun a => match a with | ⟨0, _⟩ => rfl | ⟨1, _⟩ => rfl))
      ((val_main_v71_apply x3 _).trans ((val_main_v70_apply x3 _).trans (congrArg x3 (w1_2 i k))))))
    (congrArg (val_main_v74 (F := Ideal) x4) (funext fun a => match a with | ⟨0, _⟩ => rfl | ⟨1, _⟩ => rfl))) rfl

/-- The reference's second layer is `Cheb.layer2` of the first layer's result, its two propagated arrays, the second
    weight stack and the second bias as a row. -/
theorem layer2_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S3x128x64, .f32⟩ : BufTy).Contents (Elt Ideal))
    (x4 : (⟨S64, .f32⟩ : BufTy).Contents (Elt Ideal)) (x5 : (⟨S3x64x40, .f32⟩ : BufTy).Contents (Elt Ideal))
    (x6 : (⟨S40, .f32⟩ : BufTy).Contents (Elt Ideal)) :
    val_main_v124 (F := Ideal) x0 x1 x2 x3 x4 x5 x6
      = Cheb.layer2 (val_main_v77 (F := Ideal) x0 x1 x2 x3 x4) (val_main_v97 (F := Ideal) x0 x1 x2 x3 x4)
          (val_main_v117 (F := Ideal) x0 x1 x2 x3 x4) x5 (val_main_v122 (F := Ideal) x6) := by
  funext i
  rw [val_main_v124_apply, val_main_v121_apply, val_main_v101_apply, val_main_v84_apply, val_main_v100_apply, val_main_v120_apply,
    val_main_v123_apply]
  show ((_ + _) + _) + _ = Cheb.affine2 _ _ _ _ _ _ _
  unfold Cheb.affine2
  exact congrArg₂ (· + ·) (congrArg₂ (· + ·) (congrArg₂ (· + ·)
    (Finset.sum_congr rfl fun k _ => congrArg₂ (· * ·) (congrArg (val_main_v77 (F := Ideal) x0 x1 x2 x3 x4) (funext fun a => match a with | ⟨0, _⟩ => rfl | ⟨1, _⟩ => rfl))
      ((val_main_v83_apply x5 _).trans ((val_main_v82_apply x5 _).trans (congrArg x5 (w2_0 i k)))))
    (Finset.sum_congr rfl fun k _ => congrArg₂ (· * ·) (congrArg (val_main_v97 (F := Ideal) x0 x1 x2 x3 x4) (funext fun a => match a with | ⟨0, _⟩ => rfl | ⟨1, _⟩ => rfl))
      ((val_main_v99_apply x5 _).trans ((val_main_v98_apply x5 _).trans (congrArg x5 (w2_1 i k))))))
    (Finset.sum_congr rfl fun k _ => congrArg₂ (· * ·) (congrArg (val_main_v117 (F := Ideal) x0 x1 x2 x3 x4) (funext fun a => match a with | ⟨0, _⟩ => rfl | ⟨1, _⟩ => rfl))
      ((val_main_v119_apply x5 _).trans ((val_main_v118_apply x5 _).trans (congrArg x5 (w2_2 i k))))))
    (congrArg (val_main_v122 (F := Ideal) x6) (funext fun a => match a with | ⟨0, _⟩ => rfl | ⟨1, _⟩ => rfl))

end Cert.ReferenceIdeal.Layers

end
-- ==== Proof.HostB.lean ====
/-
  From the first combine step to the end of the idealized kernel. The first step leaves the first layer's result in its
  output array: the layer of Proof/Spec.lean of the input features and their two propagated arrays, which is the
  reference's first layer. The host operations after it propagate that result as they propagated the input, with the
  same normalised weights and the same edge ends, which the first step does not touch; their buffers are the
  reference's stages. The second step then leaves the second layer of those arrays in the result array: the
  reference's result.
-/
import proofs.«168913_j40604620816841_1_alg».proof.Proof.HostA
import proofs.«168913_j40604620816841_1_alg».proof.Proof.Region0
import proofs.«168913_j40604620816841_1_alg».proof.Proof.Region1
import proofs.«168913_j40604620816841_1_alg».proof.Proof.RefLayers

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg)

/-! ## The first combine step's result -/

/-- After the first step its output array holds the reference's first layer. -/
theorem hidden_eq (c : Dev nD) :
    W4 m ρ c (Proc.devRef .tc main_v64) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((Region0.final (V3 m ρ) c).trans ?_)
  show Cheb.layer1 (W3 m ρ c (Proc.devRef .tc main_arg0)) (W3 m ρ c (Proc.devRef .tc main_v46)) (W3 m ρ c (Proc.devRef .tc main_v62))
      (W3 m ρ c (Proc.devRef .tc main_arg3)) (W3 m ρ c (Proc.devRef .tc main_v63)) = _
  rw [w3_arg0 m ρ c, tx1_eq m ρ c, tx2_eq m ρ c, w3_arg3 m ρ c, bias1_eq m ρ c]
  exact (Cert.ReferenceIdeal.Layers.layer1_eq _ _ _ _ _).symm

/-! ## What the first step leaves alone -/

theorem w4_norm (c : Dev nD) : W4 m ρ c (Proc.devRef .tc main_v33) = val_main_v29 (F := Ideal) (m ((c : Thread nD τ).loc main_arg1)) (m ((c : Thread nD τ).loc main_arg2)) :=
  (W4_of_ne m ρ c main_v33 (by decide)).trans (norm_eq m ρ c)

theorem w4_src (c : Dev nD) : W4 m ρ c (Proc.devRef .tc main_v1) = val_main_v79 (F := Ideal) (m ((c : Thread nD τ).loc main_arg1)) :=
  (W4_of_ne m ρ c main_v1 (by decide)).trans (w3_src m ρ c)

theorem w4_dst (c : Dev nD) : W4 m ρ c (Proc.devRef .tc main_v3) = val_main_v81 (F := Ideal) (m ((c : Thread nD τ).loc main_arg1)) :=
  (W4_of_ne m ρ c main_v3 (by decide)).trans (w3_dst m ρ c)

theorem w4_arg5 (c : Dev nD) : W4 m ρ c (Proc.devRef .tc main_arg5) = (m ((c : Thread nD τ).loc main_arg5)) :=
  (W4_of_ne m ρ c main_arg5 (by decide)).trans (w3_arg5 m ρ c)

theorem w4_arg6 (c : Dev nD) : W4 m ρ c (Proc.devRef .tc main_arg6) = (m ((c : Thread nD τ).loc main_arg6)) :=
  (W4_of_ne m ρ c main_arg6 (by decide)).trans (w3_arg6 m ρ c)

/-! ## The second layer's propagated features -/

/-- The first layer's result propagated once. -/
theorem tx1b_eq (c : Dev nD) :
    W5 m ρ c (Proc.devRef .tc main_v77) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h64 := hidden_eq m ρ c
  have h33 := w4_norm m ρ c
  have h1 := w4_src m ρ c
  have h3 := w4_dst m ρ c
  show StableHlo.after hostOps1 (W4 m ρ c) (Proc.devRef .tc main_v77) = _
  generalize W4 m ρ c = Wg at h64 h33 h1 h3 ⊢
  after_results_simp
  rw [h64, h33, h1, h3]
  rfl

/-- Twice that propagated again, minus the first layer's result. -/
theorem tx2b_eq (c : Dev nD) :
    W5 m ρ c (Proc.devRef .tc main_v93) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h64 := hidden_eq m ρ c
  have h33 := w4_norm m ρ c
  have h1 := w4_src m ρ c
  have h3 := w4_dst m ρ c
  show StableHlo.after hostOps1 (W4 m ρ c) (Proc.devRef .tc main_v93) = _
  generalize W4 m ρ c = Wg at h64 h33 h1 h3 ⊢
  after_results_simp
  rw [h64, h33, h1, h3]
  rfl

/-- The second bias as a row. -/
theorem bias2_eq (c : Dev nD) :
    W5 m ρ c (Proc.devRef .tc main_v94) = val_main_v122 (F := Ideal) (m ((c : Thread nD τ).loc main_arg6)) := by
  have h6 := w4_arg6 m ρ c
  show StableHlo.after hostOps1 (W4 m ρ c) (Proc.devRef .tc main_v94) = _
  generalize W4 m ρ c = Wg at h6 ⊢
  after_results_simp
  rw [h6]
  exact row_of_vec40 _ _

/-- The first layer's result is still in place at the second step's entry. -/
theorem w5_hidden (c : Dev nD) :
    W5 m ρ c (Proc.devRef .tc main_v64) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h64 := hidden_eq m ρ c
  show StableHlo.after hostOps1 (W4 m ρ c) (Proc.devRef .tc main_v64) = _
  generalize W4 m ρ c = Wg at h64 ⊢
  after_results_simp
  exact h64

/-- So is the second weight stack. -/
theorem w5_arg5 (c : Dev nD) : W5 m ρ c (Proc.devRef .tc main_arg5) = (m ((c : Thread nD τ).loc main_arg5)) := by
  have h5 := w4_arg5 m ρ c
  show StableHlo.after hostOps1 (W4 m ρ c) (Proc.devRef .tc main_arg5) = _
  generalize W4 m ρ c = Wg at h5 ⊢
  after_results_simp
  exact h5

/-! ## The result -/

/-- After the second step the result array holds the reference's result. -/
theorem result_eq (c : Dev nD) :
    W6 m ρ c (Proc.devRef .tc main_v95) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 5).trans ((Region1.final (V5 m ρ) c).trans ?_)
  show Cheb.layer2 (W5 m ρ c (Proc.devRef .tc main_v64)) (W5 m ρ c (Proc.devRef .tc main_v77)) (W5 m ρ c (Proc.devRef .tc main_v93))
      (W5 m ρ c (Proc.devRef .tc main_arg5)) (W5 m ρ c (Proc.devRef .tc main_v94)) = _
  rw [w5_hidden m ρ c, tx1b_eq m ρ c, tx2b_eq m ρ c, w5_arg5 m ρ c, bias2_eq m ρ c]
  exact (Cert.ReferenceIdeal.Layers.layer2_eq _ _ _ _ _ _ _).symm

end Cert.KernelIdeal.Host

end
-- ==== Proof.lean ====
/-
  The certificate of a two-layer Chebyshev graph convolution (three terms per layer) on 100000 nodes and 1600000
  weighted edges. Each layer is  ((T0·W0 + T1·W1) + T2·W2) + b  with T0 the layer's input features, T1 their
  propagation along the normalised edges and T2 = 2·(propagation of T1) − T0; the first layer is followed by a maximum
  with zero. The kernel computes the propagations on the host and each layer's combine step in a pipelined region over
  20 blocks of 5000 rows, with bf16 operands into an f32 accumulator; the reference computes everything with whole-array
  host operations in f32.

  At the ideal instance a change of float format is the identity and a product into a zero accumulator is the plain
  sum over the contracted axis, so a block of rows of the kernel's combine step is the same rows of the reference's
  whole-array expression: the same three sums, added in the same order, plus the same bias (Proof/Spec.lean states the
  layer once; Proof/Region0.lean and Proof/Region1.lean show each region leaves it, Proof/RefLayers.lean that the
  reference computes it). Everything else is the same host operations applied to the same arrays in both programs
  (Proof/HostA.lean, Proof/HostB.lean), so no property of the gathers, the scatter-adds or the inverse square root is
  needed, and neither is finiteness of the inputs: the two results are one function of the arguments.

  No operation of the kernel is rewritten in forming its idealization, which is therefore the kernel's own text read at
  the ideal instance: that conjunct is trivial.
-/
import proofs.«168913_j40604620816841_1_alg».proof.Defs
import proofs.«168913_j40604620816841_1_alg».proof.Proof.Gen.Kernel
import proofs.«168913_j40604620816841_1_alg».proof.Proof.Gen.Kernel.Skeleton
import proofs.«168913_j40604620816841_1_alg».proof.Proof.Gen.Kernel.Launch
import proofs.«168913_j40604620816841_1_alg».proof.Proof.Gen.Kernel.Points
import proofs.«168913_j40604620816841_1_alg».proof.Proof.Gen.Kernel.Frame
import proofs.«168913_j40604620816841_1_alg».proof.Proof.Gen.KernelIdeal
import proofs.«168913_j40604620816841_1_alg».proof.Proof.Gen.KernelIdeal.Skeleton
import proofs.«168913_j40604620816841_1_alg».proof.Proof.Gen.KernelIdeal.Launch
import proofs.«168913_j40604620816841_1_alg».proof.Proof.Gen.KernelIdeal.Points
import proofs.«168913_j40604620816841_1_alg».proof.Proof.Gen.KernelIdeal.Frame
import proofs.«168913_j40604620816841_1_alg».proof.Proof.Gen.ReferenceIdeal
import proofs.«168913_j40604620816841_1_alg».proof.Proof.Gen.ReferenceIdeal.Run
import proofs.«168913_j40604620816841_1_alg».proof.Proof.Gen.ReferenceIdeal.Read
import proofs.«168913_j40604620816841_1_alg».proof.Proof.Gen.Pre_finite_inputs
import proofs.«168913_j40604620816841_1_alg».proof.Proof.KerRun
import proofs.«168913_j40604620816841_1_alg».proof.Proof.HostB
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result arrays. -/
theorem algebraic : Cert.algebraic_KernelIdeal_ReferenceIdeal := by
  intro m ρ m' ρ' _ hagree
  refine ⟨fun c => Cert.ReferenceIdeal.Read.val_main_v124 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Host.result_eq m ρ c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v124_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
